-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_cst_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S64x128 : Shape := ⟨2, ![64, 128]⟩
abbrev S128x256 : Shape := ⟨2, ![128, 256]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S131072x128 .f32) (main_arg1 : FVec F S64x128 .f32) (main_arg2 : FVec F S128x256 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S131072x128 : Shape := ⟨2, ![131072, 128]⟩
abbrev S64x128 : Shape := ⟨2, ![64, 128]⟩
abbrev S128x256 : Shape := ⟨2, ![128, 256]⟩
abbrev S16384x128 : Shape := ⟨2, ![16384, 128]⟩
abbrev S128x128 : Shape := ⟨2, ![128, 128]⟩
abbrev S16384x64 : Shape := ⟨2, ![16384, 64]⟩
abbrev S16384 : Shape := ⟨1, ![16384]⟩
abbrev S16384x1 : Shape := ⟨2, ![16384, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S64x128, .f32⟩
  | .hbm, ⟨2, _⟩ => ⟨S128x256, .f32⟩
  | .hbm, ⟨3, _⟩ => ⟨S131072x128, .f32⟩
  | .hbm, ⟨4, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S64x128, .f32⟩
  | .local _ .vmem, ⟨3, _⟩ => ⟨S128x256, .f32⟩
  | .local _ .vmem, ⟨4, _⟩ => ⟨S16384x128, .f32⟩
  | .local _ .vmem, ⟨5, _⟩ => ⟨S16384x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16384x128_S16384x128_0_0 : ∀ a, (![0, 0] : Fin 2 → Nat) a + S16384x128.size a ≤ S16384x128.size a
  h_S16384x128 : 0 < S16384x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  reduces_S16384x128_S16384 : S16384x128.Reduces [1] S16384
  shapeCasts_S16384_S16384x1 : S16384.ShapeCasts S16384x1
  shapeCasts_S16384x1_S16384x1 : S16384x1.ShapeCasts S16384x1
  broadcasts_S16384x1_S16384x64 : S16384x1.Broadcasts S16384x64
  reduces_S16384x64_S16384 : S16384x64.Reduces [1] S16384
  broadcasts_S16384x1_S16384x128 : S16384x1.Broadcasts S16384x128
  dot_S64x128_S128x128_S64x128_1_1_0_0_n_n_wf : DotDims.WF S64x128 S128x128 S64x128 [1] [1] [0] [0] [] []
  dot_S16384x128_S64x128_S16384x64_1_1_0_0_n_n_wf : DotDims.WF S16384x128 S64x128 S16384x64 [1] [1] [0] [0] [] []
  dot_S16384x64_S64x128_S16384x128_1_0_0_1_n_n_wf : DotDims.WF S16384x64 S64x128 S16384x128 [1] [0] [0] [1] [] []
  dot_S16384x128_S128x128_S16384x128_1_1_0_0_n_n_wf : DotDims.WF S16384x128 S128x128 S16384x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S131072x128.size a
  hwx0_0 : ∀ i : grid0.Coords, EltTy.bits .f32 = 32 ∨ (Rect.block (s := S131072x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S131072x128.size a
  hwx0_3 : ∀ i : grid0.Coords, EltTy.bits .f32 = 32 ∨ (Rect.block (s := S131072x128) S16384x128.size (cc0_transform_3 i) (hinb0_3 i)).WholeWords (EltTy.packing .f32)

variable [Facts₀]

def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf
def dot_S16384x128_S64x128_S16384x64_1_1_0_0_n_n : DotDims S16384x128 S64x128 S16384x64 where
  lhsContracting := [1]
  rhsContracting := [1]
  lhsNonContracting := [0]
  rhsNonContracting := [0]
  lhsBatch := []
  rhsBatch := []
  wf := dot_S16384x128_S64x128_S16384x64_1_1_0_0_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x128 : Shape := ⟨2, ![131072, 128]⟩
abbrev S64x128 : Shape := ⟨2, ![64, 128]⟩
abbrev S128x256 : Shape := ⟨2, ![128, 256]⟩
abbrev S_ : Shape := ⟨0, ![]⟩
abbrev S131072 : Shape := ⟨1, ![131072]⟩
abbrev S131072x1 : Shape := ⟨2, ![131072, 1]⟩
abbrev S128x64 : Shape := ⟨2, ![128, 64]⟩
abbrev S131072x64 : Shape := ⟨2, ![131072, 64]⟩
abbrev S64 : Shape := ⟨1, ![64]⟩
abbrev S1x64 : Shape := ⟨2, ![1, 64]⟩
abbrev S131072x256 : Shape := ⟨2, ![131072, 256]⟩
abbrev S256x128 : Shape := ⟨2, ![256, 128]⟩

abbrev nBuf : Space → Nat
  | .hbm => 52
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S64x128, .f32⟩
  | .hbm, ⟨2, _⟩ => ⟨S128x256, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S131072x1, .f32⟩
  | .hbm, ⟨8, _⟩ => ⟨S_, .f32⟩
  | .hbm, ⟨9, _⟩ => ⟨S131072x1, .f32⟩
  | .hbm, ⟨10, _⟩ => ⟨S131072x1, .f32⟩
  | .hbm, ⟨11, _⟩ => ⟨S131072x128, .f32⟩
  | .hbm, ⟨12, _⟩ => ⟨S131072x128, .f32⟩
  | .hbm, ⟨13, _⟩ => ⟨S128x64, .f32⟩
  | .hbm, ⟨14, _⟩ => ⟨S131072x64, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S131072x64, .f32⟩
  | .hbm, ⟨22, _⟩ => ⟨S131072x64, .f32⟩
  | .hbm, ⟨23, _⟩ => ⟨S131072x64, .f32⟩
  | .hbm, ⟨24, _⟩ => ⟨S_, .f32⟩
  | .hbm, ⟨25, _⟩ => ⟨S64, .f32⟩
  | .hbm, ⟨26, _⟩ => ⟨S1x64, .f32⟩
  | .hbm, ⟨27, _⟩ => ⟨S131072x64, .f32⟩
  | .hbm, ⟨28, _⟩ => ⟨S131072x64, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S131072, .f32⟩
  | .hbm, ⟨34, _⟩ => ⟨S131072x1, .f32⟩
  | .hbm, ⟨35, _⟩ => ⟨S131072x64, .f32⟩
  | .hbm, ⟨36, _⟩ => ⟨S131072x64, .f32⟩
  | .hbm, ⟨37, _⟩ => ⟨S131072x64, .f32⟩
  | .hbm, ⟨38, _⟩ => ⟨S_, .f32⟩
  | .hbm, ⟨39, _⟩ => ⟨S131072, .f32⟩
  | .hbm, ⟨40, _⟩ => ⟨S131072x1, .f32⟩
  | .hbm, ⟨41, _⟩ => ⟨S131072x64, .f32⟩
  | .hbm, ⟨42, _⟩ => ⟨S131072x64, .f32⟩
  | .hbm, ⟨43, _⟩ => ⟨S131072x128, .f32⟩
  | .hbm, ⟨44, _⟩ => ⟨S131072x256, .f32⟩
  | .hbm, ⟨45, _⟩ => ⟨S256x128, .f32⟩
  | .hbm, ⟨46, _⟩ => ⟨S131072x128, .f32⟩
  | .hbm, ⟨47, _⟩ => ⟨S_, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  transposes_S64x128_S128x64_1_0 : S64x128.Transposes [1, 0] S128x64
  reducesTo_S131072x64_S64_d0 : S131072x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S131072_d1 : S131072x64.ReducesTo [1] S131072
  bcast_S_S131072 : S_.BroadcastsInDim S131072 (![] : Fin 0 → Fin S131072.rank)
  bcast_S131072x1_S131072x64_0_1 : S131072x1.BroadcastsInDim S131072x64 (![0, 1] : Fin 2 → Fin S131072x64.rank)
  concatenates_S131072x128_S131072x128_S131072x256_d1 : Shape.Concatenates [S131072x128, S131072x128] S131072x256 1
  transposes_S128x256_S256x128_1_0 : S128x256.Transposes [1, 0] S256x128
  bcast_S_S131072x128 : S_.BroadcastsInDim S131072x128 (![] : Fin 0 → Fin S131072x128.rank)
  dot_S131072x128_S128x64_S131072x64_1_0_0_1_n_n_wf : DotDims.WF S131072x128 S128x64 S131072x64 [1] [0] [0] [1] [] []
  dot_S131072x64_S64x128_S131072x128_1_0_0_1_n_n_wf : DotDims.WF S131072x64 S64x128 S131072x128 [1] [0] [0] [1] [] []
  dot_S131072x256_S256x128_S131072x128_1_0_0_1_n_n_wf : DotDims.WF S131072x256 S256x128 S131072x128 [1] [0] [0] [1] [] []

variable [Facts₀]

def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.RealCore.lean ====
/-
  The memory read, on real numbers: two arrangements of one function.

  A token row `x` (over the features `ι`) is scored against memory slots `C j` by the inner products of the
  NORMALISED row, `s j = ∑ k, (x k / max ‖x‖ D) · C j k`, the scores are turned into softmax weights
  `p j = exp (s j) / ∑ j', exp (s j')`, the weighted slot `fine k = ∑ j, p j · C j k` is appended to the row, and the
  appended row goes through a linear map `[W1 | W2]`, scaled by `a`, plus the row itself.

  The first arrangement normalises the scores instead of the row (`‖x‖` clamped through its square,
  `max (‖x‖²) (D²)`), leaves the softmax unshifted, folds `a` into the weights, multiplies the slots into `W2` first and
  divides by the softmax denominator last.  The second normalises the row, shifts the scores by an arbitrary real `μ`
  before the exponential (the usual subtraction of the row maximum: any real shift cancels in the quotient), and applies
  `a` at the end.  Over the reals the two agree, for every floor `D > 0`.
-/
import Idealize.ShloMosaic.PureOps.Ideal

noncomputable section

open scoped BigOperators

namespace Cert.Mem

variable {ι κ : Type} [Fintype ι] [Fintype κ]

/-- The squared Euclidean norm of a row. -/
def ssq (x : ι → ℝ) : ℝ := ∑ k, x k * x k

/-- The raw inner product of a row with memory slot `j`. -/
def raw (x : ι → ℝ) (C : κ → ι → ℝ) (j : κ) : ℝ := ∑ k, x k * C j k

/-- First arrangement: the raw score scaled by the reciprocal root of the clamped squared norm. -/
def scoreK (D2 : ℝ) (x : ι → ℝ) (C : κ → ι → ℝ) (j : κ) : ℝ := raw x C j * (Real.sqrt (max (ssq x) D2))⁻¹

/-- First arrangement, the output at feature `o`. -/
def outK (D2 a : ℝ) (x : ι → ℝ) (C : κ → ι → ℝ) (W1 W2 : ι → ι → ℝ) (o : ι) : ℝ :=
  (x o + ∑ k, x k * (a * W1 o k))
    + (∑ j, Real.exp (scoreK D2 x C j) * ∑ k, C j k * (a * W2 o k)) * (1 / ∑ j, Real.exp (scoreK D2 x C j))

/-- Second arrangement: the score of the normalised row. -/
def scoreR (D : ℝ) (x : ι → ℝ) (C : κ → ι → ℝ) (j : κ) : ℝ := ∑ k, x k / max (Real.sqrt (ssq x)) D * C j k

/-- Second arrangement: the softmax weight of slot `j`, the scores shifted by `μ`. -/
def probR (D μ : ℝ) (x : ι → ℝ) (C : κ → ι → ℝ) (j : κ) : ℝ :=
  Real.exp (scoreR D x C j - μ) / ∑ j', Real.exp (scoreR D x C j' - μ)

/-- Second arrangement: the softmax-weighted slot. -/
def fineR (D μ : ℝ) (x : ι → ℝ) (C : κ → ι → ℝ) (k : ι) : ℝ := ∑ j, probR D μ x C j * C j k

/-- Second arrangement, the output at feature `o`. -/
def outR (D a μ : ℝ) (x : ι → ℝ) (C : κ → ι → ℝ) (W1 W2 : ι → ι → ℝ) (o : ι) : ℝ :=
  a * ((∑ k, x k * W1 o k) + ∑ k, fineR D μ x C k * W2 o k) + x o

/-- The root of the squared norm clamped at `D²` is the norm clamped at `D`. -/
theorem sqrt_max_sq {D : ℝ} (hD : 0 < D) (s : ℝ) : Real.sqrt (max s (D * D)) = max (Real.sqrt s) D := by
  have hDD : Real.sqrt (D * D) = D := Real.sqrt_mul_self hD.le
  rcases le_total s (D * D) with h | h
  · have h' : Real.sqrt s ≤ D := hDD ▸ Real.sqrt_le_sqrt h
    rw [max_eq_right h, max_eq_right h', hDD]
  · have h' : D ≤ Real.sqrt s := hDD ▸ Real.sqrt_le_sqrt h
    rw [max_eq_left h, max_eq_left h']

/-- The clamped squared norm is positive. -/
theorem max_ssq_pos {D : ℝ} (hD : 0 < D) (x : ι → ℝ) : 0 < max (ssq x) (D * D) :=
  lt_max_of_lt_right (mul_pos hD hD)

/-- Scaling the raw score is scoring the scaled row. -/
theorem scoreK_eq_scoreR {D : ℝ} (hD : 0 < D) (x : ι → ℝ) (C : κ → ι → ℝ) (j : κ) :
    scoreK (D * D) x C j = scoreR D x C j := by
  unfold scoreK scoreR raw
  rw [sqrt_max_sq hD, Finset.sum_mul]
  exact Finset.sum_congr rfl fun k _ => by rw [div_eq_mul_inv]; ring

/-- A common real shift of the scores cancels in the softmax quotient. -/
theorem probR_eq (D μ : ℝ) (x : ι → ℝ) (C : κ → ι → ℝ) (j : κ) :
    probR D μ x C j = Real.exp (scoreR D x C j) / ∑ j', Real.exp (scoreR D x C j') := by
  unfold probR
  have h : ∀ j', Real.exp (scoreR D x C j' - μ) = Real.exp (scoreR D x C j') / Real.exp μ := fun j' => Real.exp_sub _ _
  simp only [h]
  rw [← Finset.sum_div, div_div_div_cancel_right₀ (Real.exp_ne_zero μ)]

/-- THE TWO ARRANGEMENTS AGREE. -/
theorem outK_eq_outR {D : ℝ} (hD : 0 < D) (a μ : ℝ) (x : ι → ℝ) (C : κ → ι → ℝ) (W1 W2 : ι → ι → ℝ) (o : ι) :
    outK (D * D) a x C W1 W2 o = outR D a μ x C W1 W2 o := by
  unfold outK outR fineR
  simp only [scoreK_eq_scoreR hD, probR_eq]
  generalize hE : (∑ j, Real.exp (scoreR D x C j)) = E
  have h1 : ∑ k, x k * (a * W1 o k) = a * ∑ k, x k * W1 o k := by
    rw [Finset.mul_sum]; exact Finset.sum_congr rfl fun k _ => by ring
  have h2 : (∑ j, Real.exp (scoreR D x C j) * ∑ k, C j k * (a * W2 o k)) * (1 / E)
      = a * ∑ k, (∑ j, Real.exp (scoreR D x C j) / E * C j k) * W2 o k := by
    rw [Finset.sum_mul, Finset.mul_sum]
    simp only [Finset.sum_mul, Finset.mul_sum]
    rw [Finset.sum_comm]
    exact Finset.sum_congr rfl fun k _ => Finset.sum_congr rfl fun j _ => by ring
  rw [h1, h2]; ring

end Cert.Mem

end
-- ==== Proof.Consts.lean ====
/-
  The float constants the two programs spell, as the extended reals their patterns denote.

  `α` is the single-precision value nearest to 0.2 (both programs carry the same pattern, so only its being a real number
  matters); `δ` is the single-precision value nearest to 10⁻¹², the floor under the norm in the reference; `δ²` is what
  the kernel's floor under the SQUARED norm is read as.  The remaining patterns are 1, 0 and −∞.
-/
import Idealize.ShloMosaic.PureOps.Ideal

noncomputable section

namespace Cert.Consts

open Idealize.ShloMosaic

/-- The scale of the linear map: the single-precision neighbour of 0.2. -/
def α : ℝ := 13421773 / 67108864

/-- The floor under the norm: the single-precision neighbour of 10⁻¹². -/
def δ : ℝ := 2305843 / 2305843009213693952

theorem δ_pos : 0 < δ := by unfold δ; norm_num

/-- The square of the floor, as one fraction. -/
theorem δ_sq : δ * δ = 5316911940649 / 5316911983139663491615228241121378304 := by unfold δ; norm_num

theorem ofBits_alpha : Ideal.ofBits .f32 0x3E4CCCCD#32 = ((α : ℝ) : EReal) := by
  unfold α
  simp [Ideal.ofBits, Ideal.ieee, -EReal.coe_mul]; norm_num

theorem ofBits_delta : Ideal.ofBits .f32 0x2B8CBCCC#32 = ((δ : ℝ) : EReal) := by
  unfold δ
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_neg_inf : Ideal.ofBits .f32 0xFF800000#32 = ⊥ := by
  simp [Ideal.ofBits, Ideal.ieee]

end Cert.Consts

end
-- ==== Proof.Spec.lean ====
/-
  The specification: the memory read of the whole token array, as ONE function of the three argument arrays.

  Entry (r, o) of the result is the memory read (`Cert.Mem.outK`, equivalently `Cert.Mem.outR`) of row r of the token
  array against the 64 memory slots, through the linear map whose 256 input columns are the row's 128 features followed
  by the 128 features of the softmax-weighted slot, at output feature o — scaled by α, the floor under the norm δ.
-/
import proofs.«137765_g41455024341119_cont_sun_c4_813_23_alg».proof.Proof.RealCore
import proofs.«137765_g41455024341119_cont_sun_c4_813_23_alg».proof.Proof.Consts
import Idealize.ShloMosaic.Lib.ValueIdx

noncomputable section

namespace Cert.Mem

open Idealize.ShloMosaic Idealize.ShloMosaic.ValueIdx Cert.Consts

/-- Column k of the first half, and of the second half, of the 256 input columns of the linear map. -/
def lft (k : Fin 128) : Fin 256 := ⟨k.val, by have := k.isLt; omega⟩
def rgt (k : Fin 128) : Fin 256 := ⟨128 + k.val, by have := k.isLt; omega⟩

/-- The memory read of row r at output feature o, from real argument arrays. -/
def read (X : (⟨2, ![131072, 128]⟩ : Shape).Idx → ℝ) (C : (⟨2, ![64, 128]⟩ : Shape).Idx → ℝ)
    (W : (⟨2, ![128, 256]⟩ : Shape).Idx → ℝ) (r : Fin 131072) (o : Fin 128) : ℝ :=
  outK (δ * δ) α (fun k => X (ix2 r k)) (fun j k => C (ix2 j k)) (fun o k => W (ix2 o (lft k))) (fun o k => W (ix2 o (rgt k))) o

/-- The result array. -/
def G (X : (⟨2, ![131072, 128]⟩ : Shape).Idx → ℝ) (C : (⟨2, ![64, 128]⟩ : Shape).Idx → ℝ)
    (W : (⟨2, ![128, 256]⟩ : Shape).Idx → ℝ) : (⟨2, ![131072, 128]⟩ : Shape).Idx → EReal :=
  fun i => ((read X C W (i 0) (i 1) : ℝ) : EReal)

theorem G_ix2 (X : (⟨2, ![131072, 128]⟩ : Shape).Idx → ℝ) (C : (⟨2, ![64, 128]⟩ : Shape).Idx → ℝ)
    (W : (⟨2, ![128, 256]⟩ : Shape).Idx → ℝ) (r : Fin 131072) (o : Fin 128) :
    G X C W (ix2 r o) = ((read X C W r o : ℝ) : EReal) := rfl

end Cert.Mem

end
-- ==== Proof.RefAt.lean ====
/-
  The reference's operations on its live path, each read at named coordinates.

  The reference normalises each token row (its Euclidean norm floored at δ), scores it against the memory slots, takes a
  row softmax (shifted by the row maximum), averages the slots by the softmax weights, appends the average to the row,
  and applies the linear map, scaled by α, plus the row.  Each operation is read here at an entry given by its
  coordinates, (r, k), from its operands at entries given by theirs — the layout operations (a vector laid out as a
  column, a column spread across columns, a transpose, the two halves of the appended row) by where they read.
-/
import proofs.«137765_g41455024341119_cont_sun_c4_813_23_alg».proof.Proof.RefRead
import proofs.«137765_g41455024341119_cont_sun_c4_813_23_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefAt

open Idealize.ShloMosaic Idealize.ShloMosaic.ValueIdx Cert.ReferenceIdeal Cert.ReferenceIdeal.Gen Cert.ReferenceIdeal.Read Cert.Mem

/-- Two indices of a rank-two (rank-one) shape with equal coordinates are equal. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-- A sum over the 256 appended columns is the sum over the two halves. -/
theorem sum_halves {M : Type} [AddCommMonoid M] (f : Fin 256 → M) :
    ∑ k, f k = (∑ k : Fin 128, f (lft k)) + ∑ k : Fin 128, f (rgt k) := by
  have h := Fin.sum_univ_add (a := 128) (b := 128) (fun k : Fin (128 + 128) => f k)
  exact h

variable (x0 : (⟨S131072x128, .f32⟩ : BufTy).Contents (Elt Ideal)) (x1 : (⟨S64x128, .f32⟩ : BufTy).Contents (Elt Ideal))
  (x2 : (⟨S128x256, .f32⟩ : BufTy).Contents (Elt Ideal))

/-- The squared norm of row r. -/
theorem sumsq_at (r : Fin 131072) :
    val_main_call0_v1 (F := Ideal) x0 (ix1 r)
      = Ideal.ofBits .f32 0x00000000#32 + ∑ k : Fin 128, (x0 (ix2 r k) : EReal) * (x0 (ix2 r k) : EReal) := by
  rw [val_main_call0_v1_apply]
  refine congrArg₂ (· + ·) rfl (Finset.sum_congr rfl fun k _ => ?_)
  have e : idx_main_call0_v1 (ix1 r) k = ix2 r k := by idx2
  rw [e, val_main_call0_v0_apply, Ideal.mulf_def]

/-- The norm of row r, as a one-entry column. -/
theorem norm_at (r : Fin 131072) (u : Fin 1) :
    val_main_v0 (F := Ideal) x0 (ix2 r u) = Ideal.sqrt (val_main_call0_v1 (F := Ideal) x0 (ix1 r)) := by
  rw [val_main_v0_apply, val_main_call0_v2_apply]
  have e : idx_main_call0_v2 (ix2 r u) = ix1 r := by idx1
  rw [e, Ideal.hostUnary_sqrt_def]

/-- The floored norm. -/
theorem floored_at (r : Fin 131072) (u : Fin 1) :
    val_main_v2 (F := Ideal) x0 (ix2 r u) = max (val_main_v0 (F := Ideal) x0 (ix2 r u)) (Ideal.ofBits .f32 0x2B8CBCCC#32) := by
  rw [val_main_v2_apply, val_main_v1_apply, val_main_cst_apply]; rfl

/-- The normalised row. -/
theorem normalised_at (r : Fin 131072) (k : Fin 128) :
    val_main_v4 (F := Ideal) x0 (ix2 r k) = Ideal.div (x0 (ix2 r k)) (val_main_v2 (F := Ideal) x0 (ix2 r (0 : Fin 1))) := by
  rw [val_main_v4_apply, val_main_v3_apply]
  have e : idx_main_v3 (ix2 r k) = ix2 r (0 : Fin 1) := by idx2
  rw [e]; rfl

/-- The score of row r against slot j. -/
theorem score_at (r : Fin 131072) (j : Fin 64) :
    val_main_v6 (F := Ideal) x0 x1 (ix2 r j) = ∑ k : Fin 128, (val_main_v4 (F := Ideal) x0 (ix2 r k) : EReal) * (x1 (ix2 j k) : EReal) := by
  rw [val_main_v6_apply]
  refine Finset.sum_congr rfl fun k _ => ?_
  have e1 : lidx_main_v6 (ix2 r j) k = ix2 r k := by idx2
  have e2 : idx_main_v5 (ridx_main_v6 (ix2 r j) k) = ix2 j k := by idx2
  rw [e1, val_main_v5_apply, e2]

/-- The shift of row r: its largest score (from −∞). -/
theorem shift_at (r : Fin 131072) :
    val_main_v20 (F := Ideal) x0 x1 (ix1 r)
      = max (Ideal.ofBits .f32 0xFF800000#32) (val_main_v18 (F := Ideal) x0 x1 (ix1 r)) := by
  rw [val_main_v20_apply, val_main_v19_apply, val_main_cst_4_apply]; rfl

/-- The exponential of the shifted score. -/
theorem expo_at (r : Fin 131072) (j : Fin 64) :
    val_main_v24 (F := Ideal) x0 x1 (ix2 r j)
      = Ideal.exp ((val_main_v6 (F := Ideal) x0 x1 (ix2 r j) : EReal) - (val_main_v20 (F := Ideal) x0 x1 (ix1 r) : EReal)) := by
  rw [val_main_v24_apply, val_main_v23_apply, val_main_v22_apply, val_main_v21_apply]
  have e : idx_main_v21 (idx_main_v22 (ix2 r j)) = ix1 r := by idx1
  rw [e, Ideal.hostUnary_exp_def, Ideal.subf_def]

/-- The softmax denominator of row r. -/
theorem denom_at (r : Fin 131072) :
    val_main_v25 (F := Ideal) x0 x1 (ix1 r)
      = Ideal.ofBits .f32 0x00000000#32 + ∑ j : Fin 64, (val_main_v24 (F := Ideal) x0 x1 (ix2 r j) : EReal) := by
  rw [val_main_v25_apply]
  refine congrArg₂ (· + ·) rfl (Finset.sum_congr rfl fun j _ => ?_)
  have e : idx_main_v25 (ix1 r) j = ix2 r j := by idx2
  rw [e]

/-- The softmax weight of slot j for row r. -/
theorem weight_at (r : Fin 131072) (j : Fin 64) :
    val_main_v28 (F := Ideal) x0 x1 (ix2 r j)
      = Ideal.div (val_main_v24 (F := Ideal) x0 x1 (ix2 r j)) (val_main_v25 (F := Ideal) x0 x1 (ix1 r)) := by
  rw [val_main_v28_apply, val_main_v27_apply, val_main_v26_apply]
  have e : idx_main_v26 (idx_main_v27 (ix2 r j)) = ix1 r := by idx1
  rw [e]; rfl

/-- The weighted slot. -/
theorem fine_at (r : Fin 131072) (k : Fin 128) :
    val_main_v29 (F := Ideal) x0 x1 (ix2 r k) = ∑ j : Fin 64, (val_main_v28 (F := Ideal) x0 x1 (ix2 r j) : EReal) * (x1 (ix2 j k) : EReal) := by
  rw [val_main_v29_apply]
  refine Finset.sum_congr rfl fun j _ => ?_
  have e1 : lidx_main_v29 (ix2 r k) j = ix2 r j := by idx2
  have e2 : ridx_main_v29 (ix2 r k) j = ix2 j k := by idx2
  rw [e1, e2]

/-- The appended row: its first half is the row, -/
theorem appended_left (r : Fin 131072) (k : Fin 128) :
    val_main_v30 (F := Ideal) x0 x1 (ix2 r (lft k)) = x0 (ix2 r k) := by
  unfold val_main_v30
  exact concatenate_pair_apply_left 1 x0 _ concatenates_S131072x128_S131072x128_S131072x256_d1 (ix2 r (lft k)) rfl (ix2 r k)
    (fun b => by match b with | ⟨0, _⟩ => rfl | ⟨1, _⟩ => rfl)

/-- its second half the weighted slot. -/
theorem appended_right (r : Fin 131072) (k : Fin 128) :
    val_main_v30 (F := Ideal) x0 x1 (ix2 r (rgt k)) = val_main_v29 (F := Ideal) x0 x1 (ix2 r k) := by
  unfold val_main_v30
  exact concatenate_pair_apply_right 1 x0 _ concatenates_S131072x128_S131072x128_S131072x256_d1 (ix2 r (rgt k)) rfl rfl (ix2 r k)
    (fun b hb => by match b, hb with | ⟨0, _⟩, _ => rfl | ⟨1, _⟩, hb => exact absurd rfl hb)
    (by show k.val + 128 = 128 + k.val; omega)

/-- The linear map of the appended row, at output feature o. -/
theorem linear_at (r : Fin 131072) (o : Fin 128) :
    val_main_v32 (F := Ideal) x0 x1 x2 (ix2 r o)
      = ∑ k : Fin 256, (val_main_v30 (F := Ideal) x0 x1 (ix2 r k) : EReal) * (x2 (ix2 o k) : EReal) := by
  rw [val_main_v32_apply]
  refine Finset.sum_congr rfl fun k _ => ?_
  have e1 : lidx_main_v32 (ix2 r o) k = ix2 r k := by idx2
  have e2 : idx_main_v31 (ridx_main_v32 (ix2 r o) k) = ix2 o k := by idx2
  rw [e1, val_main_v31_apply, e2]

/-- The result: α times the linear map, plus the row. -/
theorem result_at (r : Fin 131072) (o : Fin 128) :
    val_main_v35 (F := Ideal) x0 x1 x2 (ix2 r o)
      = Ideal.ofBits .f32 0x3E4CCCCD#32 * (val_main_v32 (F := Ideal) x0 x1 x2 (ix2 r o) : EReal) + (x0 (ix2 r o) : EReal) := by
  rw [val_main_v35_apply, val_main_v34_apply, val_main_v33_apply, val_main_cst_6_apply, Ideal.addf_def, Ideal.mulf_def,
    Ideal.ofBits_def]

/-- The row maximum is a fold of `max` over the 64 scores of the row, from −∞. -/
theorem rowmax_at (r : Fin 131072) :
    val_main_v18 (F := Ideal) x0 x1 (ix1 r)
      = (Finset.univ : Finset (Fin 64)).fold max (Ideal.ofBits .f32 0xFF800000#32)
          (fun j => val_main_v6 (F := Ideal) x0 x1 (ix2 r j)) := by
  unfold val_main_v18
  rw [Host.reduce_eq_fold_single FloatOps.maximumf _ _ reducesTo_S131072x64_S131072_d1 (by decide) h_S_]
  refine congrArg (fun f => Finset.fold max (Ideal.ofBits .f32 0xFF800000#32) f (Finset.univ : Finset (Fin 64))) ?_
  funext j
  exact congrArg (val_main_v6 (F := Ideal) x0 x1) (by idx2)

end Cert.ReferenceIdeal.RefAt

end
-- ==== Proof.Coe.lean ====
/-
  Real numbers inside the extended reals: the operations of the idealized programs, applied to real arguments, are the
  real operations.  With these a term built from real inputs is pushed, operation by operation, to the image of one real
  expression, and the algebra is then done over the reals, where it is valid.
-/
import Idealize.ShloMosaic.PureOps.Ideal

noncomputable section

open scoped BigOperators

namespace Cert.Coe

open Idealize.ShloMosaic

/-- A real array read as an array of extended reals. -/
def up {s : Shape} (f : s.Idx → ℝ) : s.Idx → EReal := fun i => ((f i : ℝ) : EReal)

theorem up_apply {s : Shape} (f : s.Idx → ℝ) (i : s.Idx) : up f i = ((f i : ℝ) : EReal) := rfl

/-- An array of extended reals whose every entry is real is the image of a real array. -/
theorem eq_up_of_real {s : Shape} (x : s.Idx → EReal) (h : ∀ i, ∃ r : ℝ, x i = (r : EReal)) :
    x = up (fun i => (x i).toReal) := by
  funext i
  obtain ⟨r, hr⟩ := h i
  rw [up_apply, hr, EReal.toReal_coe]

/-- The image of a finite sum is the sum of the images. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A sum of real terms is real. -/
theorem sum_coe {ι : Type} [Fintype ι] (f : ι → ℝ) : ∑ k, (f k : EReal) = ((∑ k, f k : ℝ) : EReal) :=
  (coe_sum Finset.univ f).symm

/-- A sum of products of real factors is real. -/
theorem sum_coe_mul {ι : Type} [Fintype ι] (f g : ι → ℝ) :
    ∑ k, (f k : EReal) * (g k : EReal) = ((∑ k, f k * g k : ℝ) : EReal) := by
  rw [← sum_coe]; exact Finset.sum_congr rfl fun k _ => (EReal.coe_mul _ _).symm

theorem mul_coe (x y : ℝ) : (x : EReal) * (y : EReal) = ((x * y : ℝ) : EReal) := (EReal.coe_mul x y).symm
theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem exp_coe (x : ℝ) : Ideal.exp (x : EReal) = ((Real.exp x : ℝ) : EReal) := rfl

/-- The reciprocal root of a positive real. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- The root of a nonnegative real. -/
theorem sqrt_coe {x : ℝ} (h : 0 ≤ x) : Ideal.sqrt (x : EReal) = ((Real.sqrt x : ℝ) : EReal) := by
  rw [Ideal.sqrt_coe, if_neg (not_lt.mpr h)]

/-- The quotient of a real by a nonzero real. -/
theorem div_coe {x y : ℝ} (h : y ≠ 0) : Ideal.div (x : EReal) (y : EReal) = ((x / y : ℝ) : EReal) := by
  rw [Ideal.div_coe h, ← EReal.coe_mul, mul_one_div]

end Cert.Coe

end
-- ==== Proof.RefValue.lean ====
/-
  The reference computes the specification, when its argument arrays hold real numbers.

  Stage by stage along the reference's live path — squared norm, floored norm, normalised row, scores, the row maximum
  (some real number: whichever it is, it cancels), shifted exponentials, their sum, the softmax weights, the weighted
  slot, the appended row through the linear map — each entry is the image of a real expression, and the last one is the
  second arrangement of the memory read, which equals the first.
-/
import proofs.«137765_g41455024341119_cont_sun_c4_813_23_alg».proof.Proof.RefAt
import proofs.«137765_g41455024341119_cont_sun_c4_813_23_alg».proof.Proof.Spec
import proofs.«137765_g41455024341119_cont_sun_c4_813_23_alg».proof.Proof.Coe

noncomputable section

open scoped BigOperators

namespace Cert.ReferenceIdeal.RefValue

open Idealize.ShloMosaic Idealize.ShloMosaic.ValueIdx Cert.ReferenceIdeal Cert.ReferenceIdeal.Gen Cert.ReferenceIdeal.Read
open Cert.ReferenceIdeal.RefAt Cert.Consts Cert.Coe Cert.Mem

/-- A fold of `max` from −∞ over a nonempty family of real numbers is one of them, hence real. -/
theorem fold_max_real {n : ℕ} (hn : 0 < n) (f : Fin n → EReal) (hf : ∀ k, ∃ s : ℝ, f k = (s : EReal)) :
    ∃ μ : ℝ, (Finset.univ : Finset (Fin n)).fold max ⊥ f = (μ : EReal) := by
  classical
  have key : ∀ S : Finset (Fin n), S = ∅ ∨ ∃ i ∈ S, S.fold max ⊥ f = f i := by
    intro S
    induction S using Finset.induction_on with
    | empty => exact Or.inl rfl
    | insert a S ha ih =>
      right
      rcases ih with hS | ⟨i, hi, e⟩
      · subst hS
        exact ⟨a, Finset.mem_insert_self _ _, by rw [Finset.fold_insert ha, Finset.fold_empty, max_eq_left bot_le]⟩
      · rcases le_total (f a) (f i) with h | h
        · exact ⟨i, Finset.mem_insert_of_mem hi, by rw [Finset.fold_insert ha, e, max_eq_right h]⟩
        · exact ⟨a, Finset.mem_insert_self _ _, by rw [Finset.fold_insert ha, e, max_eq_left h]⟩
  haveI : Nonempty (Fin n) := ⟨⟨0, hn⟩⟩
  rcases key Finset.univ with h | ⟨i, _, e⟩
  · exact absurd h Finset.univ_nonempty.ne_empty
  · obtain ⟨s, hs⟩ := hf i
    exact ⟨s, e.trans hs⟩

variable (X : S131072x128.Idx → ℝ) (C : S64x128.Idx → ℝ) (W : S128x256.Idx → ℝ)

/-- Row r of the token array, the slots, and the two halves of the linear map, as real functions of coordinates. -/
abbrev row (r : Fin 131072) : Fin 128 → ℝ := fun k => X (ix2 r k)
abbrev slots : Fin 64 → Fin 128 → ℝ := fun j k => C (ix2 j k)
abbrev wl : Fin 128 → Fin 128 → ℝ := fun o k => W (ix2 o (lft k))
abbrev wr : Fin 128 → Fin 128 → ℝ := fun o k => W (ix2 o (rgt k))

theorem ssq_nonneg (x : Fin 128 → ℝ) : 0 ≤ Mem.ssq x := Finset.sum_nonneg fun k _ => mul_self_nonneg _

theorem floor_pos (x : Fin 128 → ℝ) : 0 < max (Real.sqrt (Mem.ssq x)) δ := lt_max_of_lt_right δ_pos

theorem sumsq_eq (r : Fin 131072) :
    val_main_call0_v1 (F := Ideal) (up X) (ix1 r) = ((Mem.ssq (row X r) : ℝ) : EReal) := by
  rw [sumsq_at]
  simp only [up_apply]
  rw [sum_coe_mul, ofBits_zero, add_coe, zero_add]
  rfl

theorem floored_eq (r : Fin 131072) (u : Fin 1) :
    val_main_v2 (F := Ideal) (up X) (ix2 r u) = ((max (Real.sqrt (Mem.ssq (row X r))) δ : ℝ) : EReal) := by
  rw [floored_at, norm_at, sumsq_eq, sqrt_coe (ssq_nonneg _), ofBits_delta, max_coe]

theorem normalised_eq (r : Fin 131072) (k : Fin 128) :
    val_main_v4 (F := Ideal) (up X) (ix2 r k)
      = ((X (ix2 r k) / max (Real.sqrt (Mem.ssq (row X r))) δ : ℝ) : EReal) := by
  rw [normalised_at, floored_eq, up_apply, div_coe (ne_of_gt (floor_pos _))]

theorem score_eq (r : Fin 131072) (j : Fin 64) :
    val_main_v6 (F := Ideal) (up X) (up C) (ix2 r j) = ((Mem.scoreR δ (row X r) (slots C) j : ℝ) : EReal) := by
  rw [score_at]
  simp only [normalised_eq, up_apply]
  rw [sum_coe_mul]
  rfl

/-- The shift is some real number. -/
theorem shift_real (r : Fin 131072) : ∃ μ : ℝ, val_main_v20 (F := Ideal) (up X) (up C) (ix1 r) = (μ : EReal) := by
  rw [shift_at, rowmax_at, ofBits_neg_inf]
  obtain ⟨μ, hμ⟩ := fold_max_real (by norm_num : 0 < 64)
    (fun j => val_main_v6 (F := Ideal) (up X) (up C) (ix2 r j)) (fun j => ⟨_, score_eq X C r j⟩)
  exact ⟨μ, by rw [hμ, max_eq_right bot_le]⟩

section Shifted

variable (r : Fin 131072) (μ : ℝ) (hμ : val_main_v20 (F := Ideal) (up X) (up C) (ix1 r) = (μ : EReal))
include hμ

theorem expo_eq (j : Fin 64) :
    val_main_v24 (F := Ideal) (up X) (up C) (ix2 r j)
      = ((Real.exp (Mem.scoreR δ (row X r) (slots C) j - μ) : ℝ) : EReal) := by
  rw [expo_at, score_eq, hμ, sub_coe, exp_coe]

theorem denom_eq :
    val_main_v25 (F := Ideal) (up X) (up C) (ix1 r)
      = ((∑ j : Fin 64, Real.exp (Mem.scoreR δ (row X r) (slots C) j - μ) : ℝ) : EReal) := by
  rw [denom_at]
  simp only [expo_eq X C r μ hμ]
  rw [sum_coe, ofBits_zero, add_coe, zero_add]

theorem weight_eq (j : Fin 64) :
    val_main_v28 (F := Ideal) (up X) (up C) (ix2 r j) = ((Mem.probR δ μ (row X r) (slots C) j : ℝ) : EReal) := by
  rw [weight_at, expo_eq X C r μ hμ, denom_eq X C r μ hμ,
    div_coe (ne_of_gt (Finset.sum_pos (fun j _ => Real.exp_pos _) Finset.univ_nonempty))]
  rfl

theorem fine_eq (k : Fin 128) :
    val_main_v29 (F := Ideal) (up X) (up C) (ix2 r k) = ((Mem.fineR δ μ (row X r) (slots C) k : ℝ) : EReal) := by
  rw [fine_at]
  simp only [weight_eq X C r μ hμ, up_apply]
  rw [sum_coe_mul]
  rfl

theorem linear_eq (o : Fin 128) :
    val_main_v32 (F := Ideal) (up X) (up C) (up W) (ix2 r o)
      = (((∑ k, row X r k * wl W o k) + ∑ k, Mem.fineR δ μ (row X r) (slots C) k * wr W o k : ℝ) : EReal) := by
  rw [linear_at, sum_halves]
  simp only [appended_left, appended_right, fine_eq X C r μ hμ, up_apply]
  rw [sum_coe_mul, sum_coe_mul, add_coe]

theorem result_eq (o : Fin 128) :
    val_main_v35 (F := Ideal) (up X) (up C) (up W) (ix2 r o)
      = ((Mem.outR δ α μ (row X r) (slots C) (wl W) (wr W) o : ℝ) : EReal) := by
  rw [result_at, linear_eq X C W r μ hμ, ofBits_alpha, up_apply, mul_coe, add_coe]
  rfl

end Shifted

/-- THE REFERENCE'S RESULT IS THE SPECIFICATION, for real argument arrays. -/
theorem result_is_G : val_main_v35 (F := Ideal) (up X) (up C) (up W) = Mem.G X C W := by
  funext i
  obtain ⟨r, o, rfl⟩ : ∃ (r : Fin 131072) (o : Fin 128), i = ix2 r o := ⟨i 0, i 1, eq_ix2 i⟩
  obtain ⟨μ, hμ⟩ := shift_real X C r
  rw [result_eq X C W r μ hμ o, Mem.G_ix2]
  unfold Mem.read
  rw [Mem.outK_eq_outR δ_pos α μ]

end Cert.ReferenceIdeal.RefValue

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.KernelPay.lean ====
/-
  What the kernel body stores, entry by entry, when its input blocks hold real numbers.

  The body's one stored value is cut here into named stages — the weight blocks scaled by α, the slots multiplied into
  the scaled right-hand weights, the raw scores, the squared norm of each row spread across the score columns, the
  exponentials of the scaled scores, their product with the slot weights, the reciprocal of their row sums, and the
  linear part of the row itself — and each stage, read at an entry, is the image of one real expression.  Put together,
  entry (p, q) of the stored block is the first arrangement of the memory read (`Cert.Mem.outK`) of row p of the token
  block, at feature q, with the floor under the squared norm read as δ².
-/
import proofs.«137765_g41455024341119_cont_sun_c4_813_23_alg».proof.Proof.Gen.KernelIdeal.Skeleton
import proofs.«137765_g41455024341119_cont_sun_c4_813_23_alg».proof.Proof.RealCore
import proofs.«137765_g41455024341119_cont_sun_c4_813_23_alg».proof.Proof.Coe
import proofs.«137765_g41455024341119_cont_sun_c4_813_23_alg».proof.Proof.Consts
import proofs.«137765_g41455024341119_cont_sun_c4_813_23_alg».proof.Proof.LibTransposedProduct
import proofs.«137765_g41455024341119_cont_sun_c4_813_23_alg».proof.Proof.LibPlainProduct
import proofs.«137765_g41455024341119_cont_sun_c4_813_23_alg».proof.Proof.LibColumn
import proofs.«137765_g41455024341119_cont_sun_c4_813_23_alg».proof.Proof.LibRepeat
import Idealize.ShloMosaic.PureOps.IdealRules
import Idealize.ShloMosaic.PureOps.Ideal.Laws
import Idealize.ShloMosaic.Lib.ValueIdx

noncomputable section

open scoped BigOperators

namespace Cert.KernelIdeal.Pay

open Idealize.ShloMosaic Idealize.ShloMosaic.ValueIdx Cert.KernelIdeal Cert.KernelIdeal.Gen Cert.Consts Cert.Coe

/-- The named floor under the squared norm is δ². -/
theorem named_floor : Named.named (F := Ideal) κ "eps_sq" (φ := .f32) 0x179ABE15#32 = ((δ * δ : ℝ) : EReal) := by
  rw [δ_sq]
  exact IdealRules.named_const.ideal_named_scalar _ _ _ _ rfl

/-- The exponential, the reciprocal root and a scalar pattern, read at an entry. -/
theorem exp_at {s : Shape} {φ : FTy} (v : FVec Ideal s φ) (i : s.Idx) : exp v i = Ideal.exp (v i) := rfl
theorem rsqrt_at {s : Shape} {φ : FTy} (v : FVec Ideal s φ) (i : s.Idx) : rsqrt v i = Ideal.rsqrt (v i) := rfl
theorem scalar_ofBits (φ : FTy) (b : BitVec φ.bits) : Scalar.ofBits (F := Ideal) φ b = Ideal.ofBits φ b := rfl

/-! ## The stages -/

/-- A weight block scaled by α. -/
def scaled (w : FVec Ideal S128x128 .f32) : FVec Ideal S128x128 .f32 :=
  mulf (broadcast S128x128 (Scalar.ofBits (F := Ideal) .f32 0x3E4CCCCD#32)) w

theorem scaled_apply (w : S128x128.Idx → ℝ) (o k : Fin 128) :
    scaled (up w) (ix2 o k) = ((α * w (ix2 o k) : ℝ) : EReal) := by
  show Ideal.ofBits .f32 0x3E4CCCCD#32 * ((w (ix2 o k) : ℝ) : EReal) = _
  rw [ofBits_alpha, mul_coe]

/-- The slots multiplied into the scaled right-hand weights: entry (j, o) is `∑ k, C j k · (α · W2 o k)`. -/
def slotW (c : FVec Ideal S64x128 .f32) (w2 : FVec Ideal S128x128 .f32) : FVec Ideal S64x128 .f32 :=
  matmul dot_S64x128_S128x128_S64x128_1_1_0_0_n_n none (truncf .bf16 c bitsLt_bf16_f32)
    (truncf .bf16 (scaled w2) bitsLt_bf16_f32) (constant S64x128 .f32 0x00000000#32)

theorem slotW_apply (cb : S64x128.Idx → ℝ) (w2b : S128x128.Idx → ℝ) (j : Fin 64) (o : Fin 128) :
    slotW (up cb) (up w2b) (ix2 j o) = ((∑ k : Fin 128, cb (ix2 j k) * (α * w2b (ix2 o k)) : ℝ) : EReal) := by
  unfold slotW
  refine (Cert.Lib.TransposedProduct.matmul_apply dot_S64x128_S128x128_S64x128_1_1_0_0_n_n rfl none
    (truncf .bf16 (up cb) bitsLt_bf16_f32) (truncf .bf16 (scaled (up w2b)) bitsLt_bf16_f32) j o).trans ?_
  simp only [truncf_apply, scaled_apply, up_apply]
  exact sum_coe_mul _ _

/-- The raw scores: entry (p, j) is the inner product of row p with slot j. -/
def rawS (x : FVec Ideal S16384x128 .f32) (c : FVec Ideal S64x128 .f32) : FVec Ideal S16384x64 .f32 :=
  matmul dot_S16384x128_S64x128_S16384x64_1_1_0_0_n_n none (truncf .bf16 x bitsLt_bf16_f32)
    (truncf .bf16 c bitsLt_bf16_f32) (constant S16384x64 .f32 0x00000000#32)

theorem rawS_apply (xb : S16384x128.Idx → ℝ) (cb : S64x128.Idx → ℝ) (p : Fin 16384) (j : Fin 64) :
    rawS (up xb) (up cb) (ix2 p j) = ((∑ k : Fin 128, xb (ix2 p k) * cb (ix2 j k) : ℝ) : EReal) := by
  unfold rawS
  refine (Cert.Lib.TransposedProduct.matmul_apply dot_S16384x128_S64x128_S16384x64_1_1_0_0_n_n rfl none
    (truncf .bf16 (up xb) bitsLt_bf16_f32) (truncf .bf16 (up cb) bitsLt_bf16_f32) p j).trans ?_
  simp only [truncf_apply, up_apply]
  exact sum_coe_mul _ _

/-- A lane sum of a [16384, 128] block, at row p. -/
theorem rowSum128 (v : FVec Ideal S16384x128 .f32) (p : Fin 16384) :
    multiReduction .add [1] S16384 v 0x00000000#32 reduces_S16384x128_S16384 (.inl rfl) rfl (ix1 p)
      = ∑ k : Fin 128, v (ix2 p k) := by
  refine (Ideal.multiReduction_add_single v 0x00000000#32 reduces_S16384x128_S16384 (.inl rfl) rfl (ix1 p)).trans ?_
  exact Finset.sum_congr rfl fun k _ =>
    congrArg v (funext fun a => Fin.ext (by match a with | ⟨0, _⟩ => rfl | ⟨1, _⟩ => rfl))

/-- A lane sum of a [16384, 64] block, at row p. -/
theorem rowSum64 (v : FVec Ideal S16384x64 .f32) (p : Fin 16384) :
    multiReduction .add [1] S16384 v 0x00000000#32 reduces_S16384x64_S16384 (.inl rfl) rfl (ix1 p)
      = ∑ j : Fin 64, v (ix2 p j) := by
  refine (Ideal.multiReduction_add_single v 0x00000000#32 reduces_S16384x64_S16384 (.inl rfl) rfl (ix1 p)).trans ?_
  exact Finset.sum_congr rfl fun k _ =>
    congrArg v (funext fun a => Fin.ext (by match a with | ⟨0, _⟩ => rfl | ⟨1, _⟩ => rfl))

/-- The squared norm of each row, spread across the 64 score columns. -/
def ssqS (x : FVec Ideal S16384x128 .f32) : FVec Ideal S16384x64 .f32 :=
  broadcastTo S16384x64
    (shapeCast S16384x1
      (shapeCast S16384x1
        (multiReduction .add [1] S16384 (mulf x x) 0x00000000#32 reduces_S16384x128_S16384 (.inl rfl) rfl)
        shapeCasts_S16384_S16384x1)
      shapeCasts_S16384x1_S16384x1)
    broadcasts_S16384x1_S16384x64

theorem ssqS_apply (xb : S16384x128.Idx → ℝ) (p : Fin 16384) (j : Fin 64) :
    ssqS (up xb) (ix2 p j) = ((∑ k : Fin 128, xb (ix2 p k) * xb (ix2 p k) : ℝ) : EReal) := by
  unfold ssqS
  rw [Cert.Lib.Repeat.colRepeat_apply, shapeCast_self, Cert.Lib.Column.shapeCast_a_a1_apply, rowSum128]
  simp only [mulf_apply, up_apply]
  exact sum_coe_mul _ _

/-- The exponentials of the scaled scores. -/
def expS (x : FVec Ideal S16384x128 .f32) (c : FVec Ideal S64x128 .f32) : FVec Ideal S16384x64 .f32 :=
  exp (mulf (rawS x c)
    (rsqrt (maximumf (ssqS x) (broadcast S16384x64 (Named.named (F := Ideal) κ "eps_sq" 0x179ABE15#32)))))

theorem expS_apply (xb : S16384x128.Idx → ℝ) (cb : S64x128.Idx → ℝ) (p : Fin 16384) (j : Fin 64) :
    expS (up xb) (up cb) (ix2 p j)
      = ((Real.exp (Cert.Mem.scoreK (δ * δ) (fun k => xb (ix2 p k)) (fun j k => cb (ix2 j k)) j) : ℝ) : EReal) := by
  unfold expS
  rw [exp_at, mulf_apply, rsqrt_at, maximumf_apply, broadcast_apply, rawS_apply, ssqS_apply, named_floor, max_coe,
    rsqrt_coe (lt_max_of_lt_right (mul_pos δ_pos δ_pos)), mul_coe, exp_coe]
  rfl

/-- The exponentials multiplied into the slot weights: entry (p, o) is `∑ j, e p j · (∑ k, C j k · (α · W2 o k))`. -/
def corrS (x : FVec Ideal S16384x128 .f32) (c : FVec Ideal S64x128 .f32) (w2 : FVec Ideal S128x128 .f32) :
    FVec Ideal S16384x128 .f32 :=
  matmul dot_S16384x64_S64x128_S16384x128_1_0_0_1_n_n none (truncf .bf16 (expS x c) bitsLt_bf16_f32)
    (truncf .bf16 (slotW c w2) bitsLt_bf16_f32) (constant S16384x128 .f32 0x00000000#32)

theorem corrS_apply (xb : S16384x128.Idx → ℝ) (cb : S64x128.Idx → ℝ) (w2b : S128x128.Idx → ℝ) (p : Fin 16384) (o : Fin 128) :
    corrS (up xb) (up cb) (up w2b) (ix2 p o)
      = ((∑ j : Fin 64, Real.exp (Cert.Mem.scoreK (δ * δ) (fun k => xb (ix2 p k)) (fun j k => cb (ix2 j k)) j)
            * ∑ k : Fin 128, cb (ix2 j k) * (α * w2b (ix2 o k)) : ℝ) : EReal) := by
  unfold corrS
  refine (Cert.PlainProduct.matmul_plain_apply dot_S16384x64_S64x128_S16384x128_1_0_0_1_n_n rfl none
    (truncf .bf16 (expS (up xb) (up cb)) bitsLt_bf16_f32) (truncf .bf16 (slotW (up cb) (up w2b)) bitsLt_bf16_f32) p o).trans ?_
  simp only [truncf_apply, expS_apply, slotW_apply]
  exact sum_coe_mul _ _

/-- The reciprocal of each row's sum of exponentials, spread across the 128 output columns. -/
def invDenS (x : FVec Ideal S16384x128 .f32) (c : FVec Ideal S64x128 .f32) : FVec Ideal S16384x128 .f32 :=
  broadcastTo S16384x128
    (divf (broadcast S16384x1 (Scalar.ofBits (F := Ideal) .f32 0x3F800000#32))
      (shapeCast S16384x1
        (multiReduction .add [1] S16384 (expS x c) 0x00000000#32 reduces_S16384x64_S16384 (.inl rfl) rfl)
        shapeCasts_S16384_S16384x1))
    broadcasts_S16384x1_S16384x128

theorem invDenS_apply (xb : S16384x128.Idx → ℝ) (cb : S64x128.Idx → ℝ) (p : Fin 16384) (o : Fin 128) :
    invDenS (up xb) (up cb) (ix2 p o)
      = ((1 / ∑ j : Fin 64, Real.exp (Cert.Mem.scoreK (δ * δ) (fun k => xb (ix2 p k)) (fun j k => cb (ix2 j k)) j) : ℝ) : EReal) := by
  unfold invDenS
  rw [Cert.Lib.Repeat.colRepeat_apply, divf_apply, broadcast_apply, scalar_ofBits,
    Cert.Lib.Column.shapeCast_a_a1_apply, rowSum64]
  simp only [expS_apply]
  rw [sum_coe, ofBits_one, div_coe (ne_of_gt (Finset.sum_pos (fun j _ => Real.exp_pos _) Finset.univ_nonempty))]

/-- The linear part of the row itself: entry (p, o) is `∑ k, x p k · (α · W1 o k)`. -/
def linS (x : FVec Ideal S16384x128 .f32) (w1 : FVec Ideal S128x128 .f32) : FVec Ideal S16384x128 .f32 :=
  matmul dot_S16384x128_S128x128_S16384x128_1_1_0_0_n_n none (truncf .bf16 x bitsLt_bf16_f32)
    (truncf .bf16 (scaled w1) bitsLt_bf16_f32) (constant S16384x128 .f32 0x00000000#32)

theorem linS_apply (xb : S16384x128.Idx → ℝ) (w1b : S128x128.Idx → ℝ) (p : Fin 16384) (o : Fin 128) :
    linS (up xb) (up w1b) (ix2 p o) = ((∑ k : Fin 128, xb (ix2 p k) * (α * w1b (ix2 o k)) : ℝ) : EReal) := by
  unfold linS
  refine (Cert.Lib.TransposedProduct.matmul_apply dot_S16384x128_S128x128_S16384x128_1_1_0_0_n_n rfl none
    (truncf .bf16 (up xb) bitsLt_bf16_f32) (truncf .bf16 (scaled (up w1b)) bitsLt_bf16_f32) p o).trans ?_
  simp only [truncf_apply, scaled_apply, up_apply]
  exact sum_coe_mul _ _

/-! ## The stored value -/

/-- The stored value is the stages put together. -/
theorem pay_stages (v0 : Vec Ideal S16384x128 .f32) (v2 : Vec Ideal S64x128 .f32) (v4 v8 : Vec Ideal S128x128 .f32) :
    k0_pay1 (F := Ideal) v0 v2 v4 v8 = addf (addf v0 (linS v0 v4)) (mulf (corrS v0 v2 v8) (invDenS v0 v2)) := rfl

/-- ENTRY (p, q) OF THE STORED BLOCK, for real input blocks: the first arrangement of the memory read of row p. -/
theorem pay_eq (xb : S16384x128.Idx → ℝ) (cb : S64x128.Idx → ℝ) (w1b w2b : S128x128.Idx → ℝ) (p : Fin 16384) (q : Fin 128) :
    k0_pay1 (F := Ideal) (up xb) (up cb) (up w1b) (up w2b) (ix2 p q)
      = ((Cert.Mem.outK (δ * δ) α (fun k => xb (ix2 p k)) (fun j k => cb (ix2 j k))
            (fun o k => w1b (ix2 o k)) (fun o k => w2b (ix2 o k)) q : ℝ) : EReal) := by
  rw [pay_stages]
  show (up xb (ix2 p q) + linS (up xb) (up w1b) (ix2 p q))
      + corrS (up xb) (up cb) (up w2b) (ix2 p q) * invDenS (up xb) (up cb) (ix2 p q) = _
  rw [linS_apply, corrS_apply, invDenS_apply, up_apply, add_coe, mul_coe, add_coe]
  rfl

end Cert.KernelIdeal.Pay

end
-- ==== Proof.Blocks.lean ====
import proofs.«137765_g41455024341119_cont_sun_c4_813_23_alg».proof.Proof.Gen.KernelIdeal.Frame
import Idealize.ShloMosaic.Lib.Pipeline.Value
import Idealize.ShloMosaic.Lib.ValueIdx
import Idealize.ShloMosaic.Lib.StableHlo.Run

/-!
# From the blocks to the whole result array

The kernel runs over a grid of 8 points. At point `t` it reads rows `16384·t … 16384·t + 16383` of the
token array (a block of 16384 rows and 128 columns), the whole 64×128 array, and the left and right
128-column halves of the 128×256 weight array, and writes one 16384×128 block of the result at the same
rows. So if the body's value at every point is block `t` of ONE function `G` of the three argument arrays,
the result array ends holding `G`: the 8 blocks tile the 131072 rows, row `r` lying in block `r / 16384`.
After the region one host line writes the scalar constant 0.0; the three arguments are never written.
-/

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

/-- Row a of block t is row t·16384 + a of the whole array. -/
def rowOf (t : Fin 8) (a : Fin 16384) : Fin 131072 := ⟨t.val * 16384 + a.val, by omega⟩

/-- Block t of the token array: 16384 consecutive rows. -/
def xblk (X : S131072x128.Idx → EReal) (t : Fin 8) : S16384x128.Idx → EReal := fun y => X (ix2 (rowOf t (y 0)) (y 1))
/-- The left and right 128-column halves of the weight array. -/
def wleft (W : S128x256.Idx → EReal) : S128x128.Idx → EReal := fun y => W (ix2 (y 0) ⟨(y 1).val, by have := idx2_lt1 y; omega⟩)
def wright (W : S128x256.Idx → EReal) : S128x128.Idx → EReal := fun y => W (ix2 (y 0) ⟨128 + (y 1).val, by have := idx2_lt1 y; omega⟩)

variable (m : (ℓ : Loc nD τ sig) → Buf (Elt Ideal) ℓ) (ρ : Dev nD → PrngReg)

/-- The zero offsets, however spelt. -/
theorem hz : (![0, 0] : Fin 2 → Nat) = fun _ => 0 := funext fun a => by fin_cases a <;> rfl

/-- A grid point as a number below 8. -/
def pt (t : Fin cfg0.N) : Fin 8 := Fin.cast Gen.N_0 t

theorem pt_val (t : Fin cfg0.N) : (pt t).val = t.val := rfl

/-- The block index maps over the grid: the token array and the result move with the point along the rows,
    the two other arrays stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The four block reads, each as one equation of functions

An element of a block sits in its array, on each axis, at block index × block size + 1 × its coordinate in the block. -/

/-- The token block at point t is rows 16384·t … of the token array. -/
theorem read0 (c : Dev nD) (t : Fin cfg0.N) : View.ld (Gen.iblk m c 0 t) Gen.r0_0 = xblk (V m c main_arg0) (pt t) := by
  rw [View.ld_unit_zero (S := S16384x128) hz]
  unfold Gen.iblk
  funext y
  show V m c main_arg0 (((cfg0.win 0).blk t).view.emb y) = V m c main_arg0 (ix2 (rowOf (pt t) (y 0)) (y 1))
  obtain ⟨e0, e1, -⟩ := idx_facts t
  congr 1
  funext a; apply Fin.ext
  match a with
  | ⟨0, _⟩ => show win0_0.index t (0 : Fin 2) * 16384 + 1 * (y 0).val = t.val * 16384 + (y 0).val; rw [e0]; omega
  | ⟨1, _⟩ => show win0_0.index t (1 : Fin 2) * 128 + 1 * (y 1).val = (y 1).val; rw [e1]; omega

/-- The 64×128 array is read whole at every point. -/
theorem read1 (c : Dev nD) (t : Fin cfg0.N) : View.ld (Gen.iblk m c 1 t) Gen.r0_1 = V m c main_arg1 := by
  rw [View.ld_unit_zero (S := S64x128) hz]
  unfold Gen.iblk
  funext y
  show V m c main_arg1 (((cfg0.win 1).blk t).view.emb y) = V m c main_arg1 y
  obtain ⟨-, -, e0, e1, -⟩ := idx_facts t
  congr 1
  funext a; apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- The load of columns 0 … 127 of the weight block reads the left half of the weight array. -/
theorem read2 (c : Dev nD) (t : Fin cfg0.N) : View.ld (Gen.iblk m c 2 t) Gen.r0_2 = wleft (V m c main_arg2) := by
  unfold Gen.iblk
  funext y
  show V m c main_arg2 (((cfg0.win 2).blk t).view.emb (Gen.r0_2.emb y)) = V m c main_arg2 (ix2 (y 0) ⟨(y 1).val, _⟩)
  obtain ⟨-, -, -, -, e0, e1, -⟩ := idx_facts t
  congr 1
  funext a; apply Fin.ext
  match a with
  | ⟨0, _⟩ => show win0_2.index t (0 : Fin 2) * 128 + 1 * (0 + 1 * (y 0).val) = (y 0).val; rw [e0]; omega
  | ⟨1, _⟩ => show win0_2.index t (1 : Fin 2) * 256 + 1 * (0 + 1 * (y 1).val) = (y 1).val; rw [e1]; omega

/-- The load of columns 128 … 255 of the weight block reads the right half of the weight array. -/
theorem read3 (c : Dev nD) (t : Fin cfg0.N) : View.ld (Gen.iblk m c 2 t) Gen.r0_3 = wright (V m c main_arg2) := by
  unfold Gen.iblk
  funext y
  show V m c main_arg2 (((cfg0.win 2).blk t).view.emb (Gen.r0_3.emb y)) = V m c main_arg2 (ix2 (y 0) ⟨128 + (y 1).val, _⟩)
  obtain ⟨-, -, -, -, e0, e1, -⟩ := idx_facts t
  congr 1
  funext a; apply Fin.ext
  match a with
  | ⟨0, _⟩ => show win0_2.index t (0 : Fin 2) * 128 + 1 * (0 + 1 * (y 0).val) = (y 0).val; rw [e0]; omega
  | ⟨1, _⟩ => show win0_2.index t (1 : Fin 2) * 256 + 1 * (128 + 1 * (y 1).val) = 128 + (y 1).val; rw [e1]; omega

/-! ## What a point writes back -/

/-- A block value that agrees, entry by entry, with rows 16384·t … of a whole-array function is that function
    read through the result's block at point t. -/
theorem cut_eq_read (Gc : S131072x128.Idx → EReal) (t : Fin cfg0.N) (P : S16384x128.Idx → EReal)
    (h : ∀ (p : Fin 16384) (q : Fin 128), P (ix2 p q) = Gc (ix2 (rowOf (pt t) p) q)) :
    (cfg0.win 3).cut (grid0.coords t) P = ((cfg0.win 3).blk t).view.read (Elt Ideal) Gc := by
  funext y
  show P y = Gc (((cfg0.win 3).blk t).view.emb y)
  obtain ⟨-, -, -, -, -, -, e0, e1⟩ := idx_facts t
  refine (congrArg P (eq_ix2 y)).trans ((h (y 0) (y 1)).trans (congrArg Gc ?_))
  funext a; apply Fin.ext
  match a with
  | ⟨0, _⟩ => show t.val * 16384 + (y 0).val = win0_3.index t (0 : Fin 2) * 16384 + 1 * (y 0).val; rw [e0]; omega
  | ⟨1, _⟩ => show (y 1).val = win0_3.index t (1 : Fin 2) * 128 + 1 * (y 1).val; rw [e1]; omega

section Closed

variable (G : Dev nD → S131072x128.Idx → EReal)
  (hG : ∀ (c : Dev nD) (t : Fin 8) (p : Fin 16384) (q : Fin 128),
    Gen.k0_pay1 (F := Ideal) (xblk (m ((c.tc : Thread nD τ).loc main_arg0)) t) (m ((c.tc : Thread nD τ).loc main_arg1))
        (wleft (m ((c.tc : Thread nD τ).loc main_arg2))) (wright (m ((c.tc : Thread nD τ).loc main_arg2))) (ix2 p q)
      = G c (ix2 (rowOf t p) q))

include hG in
/-- WHAT POINT t WRITES BACK is block t of G: the one covering store leaves the body's value of the four
    loads, which are the blocks above. -/
theorem flushed_eq (c : Dev nD) (t : Fin cfg0.N) :
    (dats m 0 c).flushed 3 t = ((cfg0.win 3).blk t).view.read (Elt Ideal) (G c) := by
  show (cfg0.win 3).cut (grid0.coords t) ((dats m 0 c).after 3 t) = _
  rw [after0_3]
  unfold Gen.out0_3
  rw [View.canon_unit_zero hz]
  rw [read0, read1, read2, read3, V_main_arg0, V_main_arg1, V_main_arg2]
  exact cut_eq_read (G c) t _ (fun p q => hG c (pt t) p q)

/-! ## The blocks tile the array -/

/-- An index of the array is in point t's block iff each coordinate is in the block's range on its axis. -/
theorem mem_blk (t : Fin cfg0.N) (i : S131072x128.Idx) :
    i ∈ ((cfg0.win 3).blk t).view.set ↔ ∀ a : Fin 2, win0_3.index t a * S16384x128.size a ≤ (i a).val ∧ (i a).val < win0_3.index t a * S16384x128.size a + S16384x128.size a := by
  show i ∈ ((View.whole main_v0).slice (win0_3.rect t)).set ↔ _
  rw [View.set_slice_whole, Rect.mem_set_unit]
  exact Iff.rfl

/-- Row r of the array lies in the block of point r / 16384. -/
theorem cover (i : S131072x128.Idx) :
    ∃ t : Fin cfg0.N, (cfg0.win 3).flush t = true ∧ i ∈ ((cfg0.win 3).blk t).view.set := by
  have hi0 : (i 0).val < 131072 := idx2_lt0 i
  have hi1 : (i 1).val < 128 := idx2_lt1 i
  have hN : cfg0.N = 8 := Gen.N_0
  obtain ⟨t, ht⟩ : ∃ t : Fin cfg0.N, t.val = (i 0).val / 16384 := ⟨⟨(i 0).val / 16384, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 16384 ≤ (i 0).val ∧ (i 0).val < win0_3.index t (0 : Fin 2) * 16384 + 16384; rw [e0, ht]; omega
  | ⟨1, _⟩ => show win0_3.index t (1 : Fin 2) * 128 ≤ (i 1).val ∧ (i 1).val < win0_3.index t (1 : Fin 2) * 128 + 128; rw [e1]; omega

include hG in
/-- THE ARRAY after the run is G. -/
theorem final (c : Dev nD) : (dats m 0 c).arrAt 3 cfg0.N = G c :=
  (dats m 0 c).arrAt_eq_of_cover 3 (G c) (fun t _ => flushed_eq m G hG c t) cover

end Closed

/-! ## The host line after the region -/

/-- The one host line after the region leaves the scalar constant 0.0 in its result buffer. -/
theorem tail_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

/-! ## The run, read -/

/-- The run, read: the result array at G, the scalar result at the constant 0.0, the arguments unchanged. -/
theorem run_of_pay (m : (ℓ : Loc nD τ sig) → Buf (Elt Ideal) ℓ) (ρ : Dev nD → PrngReg)
    (G : Dev nD → S131072x128.Idx → EReal)
    (hG : ∀ (c : Dev nD) (t : Fin 8) (p : Fin 16384) (q : Fin 128),
      Gen.k0_pay1 (F := Ideal) (xblk (m ((c.tc : Thread nD τ).loc main_arg0)) t) (m ((c.tc : Thread nD τ).loc main_arg1))
          (wleft (m ((c.tc : Thread nD τ).loc main_arg2))) (wright (m ((c.tc : Thread nD τ).loc main_arg2))) (ix2 p q)
        = G c (ix2 (rowOf t p) q)) :
    θ_run (defs (F := Ideal)) (onTc (τ := τ) (main (F := Ideal))) ⟨m, fun _ => 0, ρ⟩ (fun r => ∀ c : Dev nD,
      r.2.mem ((c.tc : Thread nD τ).loc main_v0) = G c
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m G hG c),
      ((h c).2 main_cst (Pipeline.mem_restRefs_of main_cst rfl (by decide))).trans (tail_cst m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (Gen.run_main m ρ)

end Cert.KernelIdeal.Blocks

end
-- ==== Proof.Bridge.lean ====
/-
  The kernel's stored block is a block of the specification.

  For real argument arrays, entry (p, q) of what the kernel body stores at grid point t — computed from rows
  16384·t … of the token array, the slots, and the two halves of the weight array — is entry (16384·t + p, q) of the
  specification: the first arrangement of the memory read of that row.
-/
import proofs.«137765_g41455024341119_cont_sun_c4_813_23_alg».proof.Proof.KernelPay
import proofs.«137765_g41455024341119_cont_sun_c4_813_23_alg».proof.Proof.Blocks
import proofs.«137765_g41455024341119_cont_sun_c4_813_23_alg».proof.Proof.Spec

noncomputable section

namespace Cert.KernelIdeal.Bridge

open Idealize.ShloMosaic Idealize.ShloMosaic.ValueIdx Cert.KernelIdeal Cert.KernelIdeal.Gen Cert.KernelIdeal.Blocks
open Cert.KernelIdeal.Pay Cert.Coe Cert.Consts

theorem kernel_block (Xr : S131072x128.Idx → ℝ) (Cr : S64x128.Idx → ℝ) (Wr : S128x256.Idx → ℝ)
    (t : Fin 8) (p : Fin 16384) (q : Fin 128) :
    k0_pay1 (F := Ideal) (xblk (up Xr) t) (up Cr) (wleft (up Wr)) (wright (up Wr)) (ix2 p q)
      = Cert.Mem.G Xr Cr Wr (ix2 (rowOf t p) q) :=
  pay_eq (fun y => Xr (ix2 (rowOf t (y 0)) (y 1))) Cr
    (fun y => Wr (ix2 (y 0) ⟨(y 1).val, by have := idx2_lt1 y; omega⟩))
    (fun y => Wr (ix2 (y 0) ⟨128 + (y 1).val, by have := idx2_lt1 y; omega⟩)) p q

end Cert.KernelIdeal.Bridge

end
-- ==== Proof.Finite.lean ====
import proofs.«137765_g41455024341119_cont_sun_c4_813_23_alg».proof.Pre_finite_inputs
import proofs.«137765_g41455024341119_cont_sun_c4_813_23_alg».proof.Proof.Gen.Pre_finite_inputs
import Idealize.ShloMosaic.PureOps.Ideal
import Idealize.ShloMosaic.Lib.ReduceAll
import Idealize.ShloMosaic.Lib.ValueIdx

/-!
# From the precondition to real entries

The precondition says, of each of the three float arguments, that every entry has absolute value
strictly below +∞. At the ideal reading a float is an extended real, its absolute value is
`max x (-x)`, and the comparison is the order's: so an entry is neither +∞ nor -∞, that is, a real number.
-/

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- An extended real whose absolute value `max x (-x)` compares strictly below the f32 pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | top => exact absurd h (by simp [Ideal.cmp])
  | coe r => exact ⟨r, rfl⟩

/-- One argument's `jnp.all (|x| < +∞)`, read at an entry. -/
theorem real_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf (F := Ideal) .olt (Host.absf (F := Ideal) (φ := .f32) x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) :=
  real_of_abs_lt (x i) (Host.reduce_andi_all _ _ hr hu ix0 h i)

theorem real_of_pre (x0 : Cert.Pre_finite_inputs.S131072x128.Idx → EReal) (x1 : Cert.Pre_finite_inputs.S64x128.Idx → EReal)
    (x2 : Cert.Pre_finite_inputs.S128x256.Idx → EReal)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_all x0 _ _ _ h0' i, fun i => real_of_all x1 _ _ _ h1 i, fun i => real_of_all x2 _ _ _ h2 i⟩

end Cert.Finite

end
-- ==== Proof.lean ====
/-
  The certificate of the memory read.

  The kernel fuses, over blocks of 16384 token rows, the row-normalised scores against 64 memory slots, their softmax,
  the softmax-weighted slot, and a linear map of the row with that slot appended, scaled by α, plus the row; the
  reference computes the same thing operation by operation.  Over the extended reals, from finite inputs:

  * every entry of the three argument arrays is a real number (the precondition, read entry by entry);
  * entry (p, q) of the block the kernel stores at grid point t is the first arrangement of the memory read of row
    16384·t + p (the stages of the stored value, each the image of a real expression), with the kernel's floor under the
    squared norm read as δ², δ the reference's floor under the norm;
  * the eight blocks tile the result array, so the kernel's result is one function G of the argument arrays;
  * the reference's result, read operation by operation, is the second arrangement of the memory read of each row (the
    row maximum it subtracts before the exponential is some real number and cancels), and the two arrangements agree
    over the reals: the root of the clamped squared norm is the clamped norm, a shift cancels in a softmax quotient, and
    the linear map distributes over the appended row.

  Both programs also return the scalar 0.  The three frames are the generated frame runs; the one rewrite of the
  idealization, the floor's name, is its rule's statement.
-/
import proofs.«137765_g41455024341119_cont_sun_c4_813_23_alg».proof.Defs
import proofs.«137765_g41455024341119_cont_sun_c4_813_23_alg».proof.Proof.Gen.Kernel
import proofs.«137765_g41455024341119_cont_sun_c4_813_23_alg».proof.Proof.Gen.Kernel.Frame
import proofs.«137765_g41455024341119_cont_sun_c4_813_23_alg».proof.Proof.Gen.KernelIdeal
import proofs.«137765_g41455024341119_cont_sun_c4_813_23_alg».proof.Proof.Gen.KernelIdeal.Frame
import proofs.«137765_g41455024341119_cont_sun_c4_813_23_alg».proof.Proof.Gen.ReferenceIdeal
import proofs.«137765_g41455024341119_cont_sun_c4_813_23_alg».proof.Proof.Gen.Pre_finite_inputs
import proofs.«137765_g41455024341119_cont_sun_c4_813_23_alg».proof.Proof.RefValue
import proofs.«137765_g41455024341119_cont_sun_c4_813_23_alg».proof.Proof.Bridge
import proofs.«137765_g41455024341119_cont_sun_c4_813_23_alg».proof.Proof.Finite
import Idealize.ShloMosaic.PureOps.IdealRules
import Idealize.ShloMosaic.Adequacy
import Idealize.ShloMosaic.Init

noncomputable section

namespace Cert.Proof

open Idealize.ShloMosaic Idealize.ShloMosaic.TcCoe Idealize.SL.Sem Cert.Coe

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the floor under the squared norm is named δ². -/
theorem preserves : Cert.preserves_Kernel_KernelIdeal :=
  IdealRules.named_const.statement Cert.KernelIdeal.κ "eps_sq" .f32 0x179ABE15#32
    ((5316911940649 / 5316911983139663491615228241121378304 : ℝ) : EReal) rfl

/-- From finite inputs that agree, both programs end with the specification of the (real) argument arrays in the
    result array, and the scalar 0 beside it. -/
theorem algebraic : Cert.algebraic_KernelIdeal_ReferenceIdeal := by
  intro m ρ m' ρ' hpre hagree
  have hfin := fun c : Dev Cert.KernelIdeal.nD => Cert.Finite.real_of_pre _ _ _ (hpre c)
  have hX : ∀ c : Dev Cert.KernelIdeal.nD, ∃ Xr : Cert.KernelIdeal.S131072x128.Idx → ℝ,
      m ((c.tc : Thread Cert.KernelIdeal.nD Cert.KernelIdeal.τ).loc Cert.KernelIdeal.main_arg0) = up Xr :=
    fun c => ⟨_, eq_up_of_real _ (hfin c).1⟩
  have hC : ∀ c : Dev Cert.KernelIdeal.nD, ∃ Cr : Cert.KernelIdeal.S64x128.Idx → ℝ,
      m ((c.tc : Thread Cert.KernelIdeal.nD Cert.KernelIdeal.τ).loc Cert.KernelIdeal.main_arg1) = up Cr :=
    fun c => ⟨_, eq_up_of_real _ (hfin c).2.1⟩
  have hW : ∀ c : Dev Cert.KernelIdeal.nD, ∃ Wr : Cert.KernelIdeal.S128x256.Idx → ℝ,
      m ((c.tc : Thread Cert.KernelIdeal.nD Cert.KernelIdeal.τ).loc Cert.KernelIdeal.main_arg2) = up Wr :=
    fun c => ⟨_, eq_up_of_real _ (hfin c).2.2⟩
  choose Xr hXr using hX
  choose Cr hCr using hC
  choose Wr hWr using hW
  refine ⟨_, _, Cert.KernelIdeal.Blocks.run_of_pay m ρ (fun c => Cert.Mem.G (Xr c) (Cr c) (Wr c)) ?_, ?_⟩
  · intro c t p q
    rw [hXr c, hCr c, hWr c]
    exact Cert.KernelIdeal.Bridge.kernel_block (Xr c) (Cr c) (Wr c) t p q
  · refine (θ_run Cert.ReferenceIdeal.defs _ _).mono (fun _ h c => ⟨?_, (h c).2.1, (h c).2.2.1, (h c).2.2.2.1, (h c).2.2.2.2⟩)
      (Cert.ReferenceIdeal.Value.run (F := Ideal) m' ρ')
    refine ((h c).1.trans (Cert.ReferenceIdeal.Read.val_main_v35_eq _ _ _)).trans ?_
    rw [(hagree c).1, (hagree c).2.1, (hagree c).2.2, hXr c, hCr c, hWr c]
    exact Cert.ReferenceIdeal.RefValue.result_is_G (Xr c) (Cr c) (Wr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
